-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x2048 : Shape := ⟨3, ![32, 256, 2048]⟩
abbrev S_ : Shape := ⟨0, ![]⟩

class Facts : Prop where
  bcast_S_S32x256x2048 : S_.BroadcastsInDim S32x256x2048 (![] : Fin 0 → Fin S32x256x2048.rank)
  reducesTo_S32x256x2048_S_d0_1_2 : S32x256x2048.ReducesTo [0, 1, 2] S_
  h_S_ : 0 < S_.numel

variable [Facts]

def fn {F : FTy → Type} [FloatOps F] (main_arg0 : FVec F S32x256x2048 .f32) (main_arg1 : FVec F S32x256x2048 .f32) : IVec S_ 1 :=
  let main_v0 : FVec F S32x256x2048 .f32 := Host.absf main_arg0
  let main_cst : FVec F S_ .f32 := constant S_ .f32 0x7F800000#32
  let main_v1 : FVec F S32x256x2048 .f32 := broadcastInDim S32x256x2048 ![] bcast_S_S32x256x2048 main_cst
  let main_v2 : IVec S32x256x2048 1 := cmpf .olt main_v0 main_v1
  let main_c : IVec S_ 1 := constantI S_ 1 1#1
  let main_v3 : IVec S_ 1 := (fun x v => Host.reduce IntOp.andi x v reducesTo_S32x256x2048_S_d0_1_2 h_S_) main_v2 main_c
  let main_v4 : FVec F S32x256x2048 .f32 := Host.absf main_arg1
  let main_cst_0 : FVec F S_ .f32 := constant S_ .f32 0x7F800000#32
  let main_v5 : FVec F S32x256x2048 .f32 := broadcastInDim S32x256x2048 ![] bcast_S_S32x256x2048 main_cst_0
  let main_v6 : IVec S32x256x2048 1 := cmpf .olt main_v4 main_v5
  let main_c_1 : IVec S_ 1 := constantI S_ 1 1#1
  let main_v7 : IVec S_ 1 := (fun x v => Host.reduce IntOp.andi x v reducesTo_S32x256x2048_S_d0_1_2 h_S_) main_v6 main_c_1
  let main_v8 : IVec S_ 1 := andi main_v3 main_v7
  main_v8
-- ==== Kernel.lean ====
abbrev S32x256x2048 : Shape := ⟨3, ![32, 256, 2048]⟩
abbrev S2048x128 : Shape := ⟨2, ![2048, 128]⟩
abbrev S_ : Shape := ⟨0, ![]⟩
abbrev S32x1024x128 : Shape := ⟨3, ![32, 1024, 128]⟩
abbrev S1x256x2048 : Shape := ⟨3, ![1, 256, 2048]⟩
abbrev S1x1024x128 : Shape := ⟨3, ![1, 1024, 128]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 29
  | .vmem => 7
  | .smem => 0
  | _ => 0

abbrev bufTy : (tb : Table) → Fin (tcTables nBuf tb) → BufTy
  | .hbm, ⟨0, _⟩ => ⟨S32x256x2048, .f32⟩
  | .hbm, ⟨1, _⟩ => ⟨S32x256x2048, .f32⟩
  | .hbm, ⟨2, _⟩ => ⟨S2048x128, .i32⟩
  | .hbm, ⟨3, _⟩ => ⟨S2048x128, .i32⟩
  | .hbm, ⟨4, _⟩ => ⟨S_, .i32⟩
  | .hbm, ⟨5, _⟩ => ⟨S_, .i32⟩
  | .hbm, ⟨6, _⟩ => ⟨S2048x128, .i32⟩
  | .hbm, ⟨7, _⟩ => ⟨S2048x128, .i32⟩
  | .hbm, ⟨8, _⟩ => ⟨S2048x128, .i32⟩
  | .hbm, ⟨9, _⟩ => ⟨S_, .i32⟩
  | .hbm, ⟨10, _⟩ => ⟨S2048x128, .i32⟩
  | .hbm, ⟨11, _⟩ => ⟨S2048x128, .i1⟩
  | .hbm, ⟨12, _⟩ => ⟨S2048x128, .i32⟩
  | .hbm, ⟨13, _⟩ => ⟨S2048x128, .i32⟩
  | .hbm, ⟨14, _⟩ => ⟨S_, .i32⟩
  | .hbm, ⟨15, _⟩ => ⟨S2048x128, .i32⟩
  | .hbm, ⟨16, _⟩ => ⟨S2048x128, .i1⟩
  | .hbm, ⟨17, _⟩ => ⟨S2048x128, .i1⟩
  | .hbm, ⟨18, _⟩ => ⟨S_, .i32⟩
  | .hbm, ⟨19, _⟩ => ⟨S2048x128, .i32⟩
  | .hbm, ⟨20, _⟩ => ⟨S2048x128, .i32⟩
  | .hbm, ⟨21, _⟩ => ⟨S2048x128, .i32⟩
  | .hbm, ⟨22, _⟩ => ⟨S2048x128, .i1⟩
  | .hbm, ⟨23, _⟩ => ⟨S_, .bf16⟩
  | .hbm, ⟨24, _⟩ => ⟨S_, .bf16⟩
  | .hbm, ⟨25, _⟩ => ⟨S2048x128, .bf16⟩
  | .hbm, ⟨26, _⟩ => ⟨S2048x128, .bf16⟩
  | .hbm, ⟨27, _⟩ => ⟨S2048x128, .bf16⟩
  | .hbm, ⟨28, _⟩ => ⟨S32x1024x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S2048x128, .bf16⟩
  | .local _ .vmem, ⟨5, _⟩ => ⟨S1x1024x128, .f32⟩
  | .local _ .vmem, ⟨6, _⟩ => ⟨S1x1024x128, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v4 : Ref sig .tc := ⟨.hbm, 27, rfl⟩
abbrev main_v5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x128 : S_.BroadcastsInDim S2048x128 (![] : Fin 0 → Fin S2048x128.rank)
  inb_S1x256x2048_S1x256x2048_0_0_0 : ∀ a, (![0, 0, 0] : Fin 3 → Nat) a + S1x256x2048.size a ≤ S1x256x2048.size a
  h_S1x256x2048 : 0 < S1x256x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S1x256x2048_S256x2048 : S1x256x2048.ShapeCasts S256x2048
  bitsLt_bf16_f32 : FTy.bits .bf16 < FTy.bits .f32
  shapeCasts_S256x128_S1x256x128 : S256x128.ShapeCasts S1x256x128
  inb_S1x1024x128_S1x256x128_0_0_0 : ∀ a, (![0, 0, 0] : Fin 3 → Nat) a + S1x256x128.size a ≤ S1x1024x128.size a
  h_S1x256x128 : 0 < S1x256x128.numel
  inb_S1x1024x128_S1x256x128_0_256_0 : ∀ a, (![0, 256, 0] : Fin 3 → Nat) a + S1x256x128.size a ≤ S1x1024x128.size a
  inb_S1x1024x128_S1x256x128_0_512_0 : ∀ a, (![0, 512, 0] : Fin 3 → Nat) a + S1x256x128.size a ≤ S1x1024x128.size a
  inb_S1x1024x128_S1x256x128_0_768_0 : ∀ a, (![0, 768, 0] : Fin 3 → Nat) a + S1x256x128.size a ≤ S1x1024x128.size a
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S32x256x2048.size a
  hwx0_0 : ∀ i : grid0.Coords, EltTy.bits .f32 = 32 ∨ (Rect.block (s := S32x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S32x256x2048.size a
  hwx0_1 : ∀ i : grid0.Coords, EltTy.bits .f32 = 32 ∨ (Rect.block (s := S32x256x2048) S1x256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .bf16 = 32 ∨ (Rect.block (s := S2048x128) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x1024x128.size a
  hwx0_3 : ∀ i : grid0.Coords, EltTy.bits .f32 = 32 ∨ (Rect.block (s := S32x1024x128) S1x1024x128.size (cc0_transform_3 i) (hinb0_3 i)).WholeWords (EltTy.packing .f32)

variable [Facts₀]

def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x2048 : Shape := ⟨3, ![32, 256, 2048]⟩
abbrev S_ : Shape := ⟨0, ![]⟩
abbrev S32x1024x2048 : Shape := ⟨3, ![32, 1024, 2048]⟩
abbrev S32x1024x128x16 : Shape := ⟨4, ![32, 1024, 128, 16]⟩
abbrev S32x1024x128 : Shape := ⟨3, ![32, 1024, 128]⟩

abbrev nBuf : Space → Nat
  | .hbm => 49
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S32x256x2048, .f32⟩
  | .hbm, ⟨2, _⟩ => ⟨S32x256x2048, .f32⟩
  | .hbm, ⟨3, _⟩ => ⟨S_, .f32⟩
  | .hbm, ⟨4, _⟩ => ⟨S32x256x2048, .f32⟩
  | .hbm, ⟨5, _⟩ => ⟨S32x256x2048, .f32⟩
  | .hbm, ⟨6, _⟩ => ⟨S_, .f32⟩
  | .hbm, ⟨7, _⟩ => ⟨S32x256x2048, .f32⟩
  | .hbm, ⟨8, _⟩ => ⟨S32x256x2048, .f32⟩
  | .hbm, ⟨9, _⟩ => ⟨S32x256x2048, .f32⟩
  | .hbm, ⟨10, _⟩ => ⟨S32x256x2048, .f32⟩
  | .hbm, ⟨11, _⟩ => ⟨S32x256x2048, .f32⟩
  | .hbm, ⟨12, _⟩ => ⟨S_, .f32⟩
  | .hbm, ⟨13, _⟩ => ⟨S32x256x2048, .f32⟩
  | .hbm, ⟨14, _⟩ => ⟨S32x256x2048, .f32⟩
  | .hbm, ⟨15, _⟩ => ⟨S_, .f32⟩
  | .hbm, ⟨16, _⟩ => ⟨S32x256x2048, .f32⟩
  | .hbm, ⟨17, _⟩ => ⟨S32x256x2048, .f32⟩
  | .hbm, ⟨18, _⟩ => ⟨S_, .f32⟩
  | .hbm, ⟨19, _⟩ => ⟨S32x256x2048, .f32⟩
  | .hbm, ⟨20, _⟩ => ⟨S32x256x2048, .f32⟩
  | .hbm, ⟨21, _⟩ => ⟨S32x256x2048, .f32⟩
  | .hbm, ⟨22, _⟩ => ⟨S32x256x2048, .f32⟩
  | .hbm, ⟨23, _⟩ => ⟨S_, .f32⟩
  | .hbm, ⟨24, _⟩ => ⟨S32x256x2048, .f32⟩
  | .hbm, ⟨25, _⟩ => ⟨S32x256x2048, .f32⟩
  | .hbm, ⟨26, _⟩ => ⟨S_, .f32⟩
  | .hbm, ⟨27, _⟩ => ⟨S32x256x2048, .f32⟩
  | .hbm, ⟨28, _⟩ => ⟨S32x256x2048, .f32⟩
  | .hbm, ⟨29, _⟩ => ⟨S32x256x2048, .f32⟩
  | .hbm, ⟨30, _⟩ => ⟨S32x256x2048, .f32⟩
  | .hbm, ⟨31, _⟩ => ⟨S32x256x2048, .f32⟩
  | .hbm, ⟨32, _⟩ => ⟨S_, .f32⟩
  | .hbm, ⟨33, _⟩ => ⟨S32x256x2048, .f32⟩
  | .hbm, ⟨34, _⟩ => ⟨S32x256x2048, .f32⟩
  | .hbm, ⟨35, _⟩ => ⟨S_, .f32⟩
  | .hbm, ⟨36, _⟩ => ⟨S32x256x2048, .f32⟩
  | .hbm, ⟨37, _⟩ => ⟨S32x256x2048, .f32⟩
  | .hbm, ⟨38, _⟩ => ⟨S_, .f32⟩
  | .hbm, ⟨39, _⟩ => ⟨S32x256x2048, .f32⟩
  | .hbm, ⟨40, _⟩ => ⟨S32x256x2048, .f32⟩
  | .hbm, ⟨41, _⟩ => ⟨S32x256x2048, .f32⟩
  | .hbm, ⟨42, _⟩ => ⟨S32x1024x2048, .f32⟩
  | .hbm, ⟨43, _⟩ => ⟨S32x1024x128x16, .f32⟩
  | .hbm, ⟨44, _⟩ => ⟨S_, .f32⟩
  | .hbm, ⟨45, _⟩ => ⟨S32x1024x128, .f32⟩
  | .hbm, ⟨46, _⟩ => ⟨S_, .f32⟩
  | .hbm, ⟨47, _⟩ => ⟨S32x1024x128, .f32⟩
  | .hbm, ⟨48, _⟩ => ⟨S32x1024x128, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S_S32x256x2048 : S_.BroadcastsInDim S32x256x2048 (![] : Fin 0 → Fin S32x256x2048.rank)
  concatenates_S32x256x2048_S32x256x2048_S32x256x2048_S32x256x2048_S32x1024x2048_d1 : Shape.Concatenates [S32x256x2048, S32x256x2048, S32x256x2048, S32x256x2048] S32x1024x2048 1
  shapeCasts_S32x1024x2048_S32x1024x128x16 : S32x1024x2048.ShapeCasts S32x1024x128x16
  reducesTo_S32x1024x128x16_S32x1024x128_d3 : S32x1024x128x16.ReducesTo [3] S32x1024x128
  h_S_ : 0 < S_.numel
  bcast_S_S32x1024x128 : S_.BroadcastsInDim S32x1024x128 (![] : Fin 0 → Fin S32x1024x128.rank)

variable [Facts₀]

class Facts : Prop extends Facts₀ where

variable [Facts]
-- ==== Proof.WindowMean.lean ====
/-
  The averaging law behind the pooling, over the extended reals and with no program in sight.

  A row of 2048 entries is cut into 128 consecutive windows of 16. The kernel pools a row by a matrix product with
  the column "one sixteenth on window k, zero elsewhere"; the reference sums window k and divides by 16.
  Both are the same extended real: a term times zero is zero (also at an infinity), so only the window's sixteen
  terms remain, and multiplying by the nonnegative FINITE factor 1/16 distributes over a finite sum of extended reals
  whatever the summands are, so no finiteness of the entries is needed.
-/
import Mathlib.Data.EReal.Operations
import Mathlib.Algebra.BigOperators.Fin
import Idealize.ShloMosaic.PureOps.Ideal

open scoped BigOperators

namespace Cert.Pool

open Idealize.ShloMosaic

/-- A nonnegative finite factor distributes over a finite sum of extended reals. -/
theorem sum_mul_of_nonneg_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The position in its row of member `j` of window `k`: windows are consecutive runs of 16. -/
def winPos (k : Fin 128) (j : Fin 16) : Fin 2048 := ⟨16 * k.val + j.val, by have := k.isLt; have := j.isLt; omega⟩

theorem winPos_val (k : Fin 128) (j : Fin 16) : (winPos k j).val = 16 * k.val + j.val := rfl

/-- A row against a column that is `c` on window `k` and zero elsewhere: only the window's terms remain. -/
theorem window_sum (x : Fin 2048 → EReal) (k : Fin 128) (c : EReal) :
    ∑ t : Fin 2048, x t * (if t.val / 16 = k.val then c else 0) = ∑ j : Fin 16, x (winPos k j) * c := by
  classical
  have hinj : Function.Injective (winPos k) := fun a b h => by
    have := congrArg Fin.val h; simp only [winPos_val] at this; exact Fin.ext (by omega)
  have himg : Finset.univ.image (winPos k) = Finset.univ.filter (fun t : Fin 2048 => t.val / 16 = k.val) := by
    ext t
    simp only [Finset.mem_image, Finset.mem_univ, true_and, Finset.mem_filter]
    constructor
    · rintro ⟨j, rfl⟩; rw [winPos_val]; have := j.isLt; omega
    · intro h
      exact ⟨⟨t.val % 16, Nat.mod_lt _ (by norm_num)⟩, Fin.ext (by rw [winPos_val]; show 16 * k.val + t.val % 16 = t.val; omega)⟩
  calc ∑ t : Fin 2048, x t * (if t.val / 16 = k.val then c else 0)
      = ∑ t : Fin 2048, (if t.val / 16 = k.val then x t * c else 0) := by
        refine Finset.sum_congr rfl fun t _ => ?_
        split_ifs <;> simp
    _ = ∑ t ∈ Finset.univ.filter (fun t : Fin 2048 => t.val / 16 = k.val), x t * c := (Finset.sum_filter _ _).symm
    _ = ∑ t ∈ Finset.univ.image (winPos k), x t * c := by rw [himg]
    _ = ∑ j : Fin 16, x (winPos k j) * c := Finset.sum_image (fun a _ b _ h => hinj h)

/-- THE LAW: the product of a row with the averaging column of window `k` is the window's sum divided by 16. -/
theorem pooled_eq_mean (x : Fin 2048 → EReal) (k : Fin 128) :
    ∑ t : Fin 2048, x t * (if t.val / 16 = k.val then (((1 : ℝ) / 16 : ℝ) : EReal) else 0)
      = Ideal.div (∑ j : Fin 16, x (winPos k j)) ((16 : ℝ) : EReal) := by
  rw [window_sum, Ideal.div_coe (by norm_num : (16 : ℝ) ≠ 0),
    sum_mul_of_nonneg_ne_top _ _ (EReal.coe_nonneg.mpr (by norm_num)) (EReal.coe_ne_top _)]

end Cert.Pool
-- ==== Proof.PoolSpec.lean ====
/-
  The specification: what both programs compute, as one function of the two argument arrays.

  The arguments are two arrays s0, s1 of shape [32, 256, 2048] (batch, channel, time). Position by position they feed a
  small DAG of four nodes,
      node2 = tanh s0 + max s1 0          node3 = logistic s1 + node2
      node4 = tanh s0 + max node3 0       node5 = logistic node2 + node4,
  the four nodes are laid one after the other along the channel axis (1024 rows: row r is node r / 256 at channel
  r % 256), and each row's 2048 time steps are averaged over 128 consecutive windows of 16. The result has shape
  [32, 1024, 128]. Everything is read on the extended reals, where the logistic is 1 / (1 + exp (-x)).
-/
import Idealize.ShloMosaic.PureOps.Ideal
import Idealize.ShloMosaic.Lib.ValueIdx
import proofs.«179238_j27633819582750_1_alg».proof.Proof.WindowMean

open scoped BigOperators

noncomputable section

namespace Cert.Pool

open Idealize.ShloMosaic Idealize.ShloMosaic.ValueIdx

/-! ## The four nodes at one position, as functions of the two inputs' entries there -/

def node2 (a b : EReal) : EReal := Ideal.tanh a + max b 0
def node3 (a b : EReal) : EReal := Ideal.logistic b + node2 a b
def node4 (a b : EReal) : EReal := Ideal.tanh a + max (node3 a b) 0
def node5 (a b : EReal) : EReal := Ideal.logistic (node2 a b) + node4 a b

/-- The node laid at place `n` of the four along the channel axis. -/
def node (n : Fin 4) (a b : EReal) : EReal :=
  match n with
  | ⟨0, _⟩ => node2 a b
  | ⟨1, _⟩ => node3 a b
  | ⟨2, _⟩ => node4 a b
  | ⟨3, _⟩ => node5 a b

/-! ## The result array -/

/-- The argument arrays' shape, and the result's. -/
abbrev SArg : Shape := ⟨3, ![32, 256, 2048]⟩
abbrev SRes : Shape := ⟨3, ![32, 1024, 128]⟩

/-- Which node a result row holds, and at which channel. -/
def nodeOf (r : Fin 1024) : Fin 4 := ⟨r.val / 256, by have := r.isLt; omega⟩
def chanOf (r : Fin 1024) : Fin 256 := ⟨r.val % 256, Nat.mod_lt _ (by decide)⟩

/-- Result row `r` of batch `b` before the averaging: its node at its channel, along the 2048 time steps. -/
def nodeRow (s0 s1 : SArg.Idx → EReal) (b : Fin 32) (r : Fin 1024) : Fin 2048 → EReal :=
  fun t => node (nodeOf r) (s0 (ix3 b (chanOf r) t)) (s1 (ix3 b (chanOf r) t))

/-- One entry of the result: the mean of the row over window `k`. -/
def pooledAt (s0 s1 : SArg.Idx → EReal) (b : Fin 32) (r : Fin 1024) (k : Fin 128) : EReal :=
  Ideal.div (∑ j : Fin 16, nodeRow s0 s1 b r (winPos k j)) ((16 : ℝ) : EReal)

/-- THE RESULT ARRAY as one function of the argument arrays. -/
def pooled (s0 s1 : SArg.Idx → EReal) : SRes.Idx → EReal := fun i => pooledAt s0 s1 (i 0) (i 1) (i 2)

/-- A row against ANY column that is one sixteenth on window `k` and zero elsewhere is that entry of the result
    (the averaging law of the module above, at this row). -/
theorem row_times_column (s0 s1 : SArg.Idx → EReal) (b : Fin 32) (r : Fin 1024) (k : Fin 128) (P : Fin 2048 → EReal)
    (hP : ∀ t : Fin 2048, P t = if t.val / 16 = k.val then (((1 : ℝ) / 16 : ℝ) : EReal) else 0) :
    ∑ t : Fin 2048, nodeRow s0 s1 b r t * P t = pooledAt s0 s1 b r k := by
  rw [pooledAt, ← pooled_eq_mean]
  exact Finset.sum_congr rfl fun t _ => by rw [hP t]

end Cert.Pool

end
-- ==== Proof.KernelPool.lean ====
/-
  The kernel body's arithmetic, read at an index on the extended reals.

  At a grid point the body holds one batch: blocks x0, x1 of shape [1, 256, 2048] of the two arguments and the whole
  [2048, 128] pooling matrix x2. It forms the four nodes position by position and pools each the same way — the block
  flattened to [256, 2048], multiplied into the matrix from a zero accumulator, the [256, 128] product recast to
  [1, 256, 128] — and stores node n's pooled block at rows 256 n … 256 n + 255 of its [1, 1024, 128] output block.
  A change of float format is the identity here, so a pooled block at (0, c, k) is the sum over the 2048 time steps
  of the node at (0, c, t) times the matrix at (t, k).
-/
import proofs.«179238_j27633819582750_1_alg».proof.Proof.Gen.KernelIdeal.Skeleton
import proofs.«179238_j27633819582750_1_alg».proof.Proof.PoolSpec
import Idealize.ShloMosaic.Lib.Pipeline.Value
import Idealize.ShloMosaic.Lib.ValueIdx
import Idealize.ShloMosaic.PureOps.Ideal.Laws

open scoped BigOperators

noncomputable section

namespace Cert.KernelIdeal.Pooling

open Cert.KernelIdeal Cert.KernelIdeal.Gen Idealize.ShloMosaic Idealize.ShloMosaic.ValueIdx Cert.Pool

/-! ## The nodes, position by position -/

theorem pay2_apply (x0 x1 : Vec Ideal S1x256x2048 .f32) (i : S1x256x2048.Idx) :
    k0_pay2 x0 x1 i = node2 (x0 i) (x1 i) := by
  show Ideal.tanh (x0 i) + max (x1 i) (Ideal.ofBits .f32 0x00000000#32) = _
  rw [Ideal.ofBits_zero_f32]; rfl

theorem pay3_apply (x0 x1 : Vec Ideal S1x256x2048 .f32) (i : S1x256x2048.Idx) :
    k0_pay3 x0 x1 i = node3 (x0 i) (x1 i) := by
  show Ideal.logistic (x1 i) + k0_pay2 x0 x1 i = _
  rw [pay2_apply]; rfl

theorem pay4_apply (x0 x1 : Vec Ideal S1x256x2048 .f32) (i : S1x256x2048.Idx) :
    k0_pay4 x0 x1 i = node4 (x0 i) (x1 i) := by
  show Ideal.tanh (x0 i) + max (k0_pay3 x0 x1 i) (Ideal.ofBits .f32 0x00000000#32) = _
  rw [Ideal.ofBits_zero_f32, pay3_apply]; rfl

/-- The fourth node, which the body forms just before its last product. -/
def lastNode (x0 x1 : Vec Ideal S1x256x2048 .f32) : FVec Ideal S1x256x2048 .f32 :=
  addf (logistic (k0_pay2 x0 x1)) (k0_pay4 x0 x1)

theorem lastNode_apply (x0 x1 : Vec Ideal S1x256x2048 .f32) (i : S1x256x2048.Idx) :
    lastNode x0 x1 i = node5 (x0 i) (x1 i) := by
  show Ideal.logistic (k0_pay2 x0 x1 i) + k0_pay4 x0 x1 i = _
  rw [pay2_apply, pay4_apply]; rfl

/-! ## One node's block pooled -/

/-- A [1, 256, 2048] block pooled against the matrix: flattened, multiplied from zero, recast. -/
def poolBlock (z : Vec Ideal S1x256x2048 .f32) (p : Vec Ideal S2048x128 .bf16) : FVec Ideal S1x256x128 .f32 :=
  shapeCast S1x256x128
    (matmul dot_S256x2048_S2048x128_S256x128_1_0_0_1_n_n none
      (truncf .bf16 (shapeCast S256x2048 z Facts₀.shapeCasts_S1x256x2048_S256x2048 : FVec Ideal S256x2048 .f32)
        Facts₀.bitsLt_bf16_f32 : FVec Ideal S256x2048 .bf16)
      (shapeCast S2048x128 p Facts₀.shapeCasts_S2048x128_S2048x128 : FVec Ideal S2048x128 .bf16)
      (constant (F := Ideal) S256x128 .f32 0x00000000#32) : FVec Ideal S256x128 .f32)
    Facts₀.shapeCasts_S256x128_S1x256x128

/-- The four stored payloads are the four nodes pooled. -/
theorem pay6_eq (x0 x1 : Vec Ideal S1x256x2048 .f32) (x2 : Vec Ideal S2048x128 .bf16) :
    k0_pay6 x0 x1 x2 = poolBlock (k0_pay2 x0 x1) x2 := rfl
theorem pay7_eq (x0 x1 : Vec Ideal S1x256x2048 .f32) (x2 : Vec Ideal S2048x128 .bf16) :
    k0_pay7 x0 x1 x2 = poolBlock (k0_pay3 x0 x1) x2 := rfl
theorem pay8_eq (x0 x1 : Vec Ideal S1x256x2048 .f32) (x2 : Vec Ideal S2048x128 .bf16) :
    k0_pay8 x0 x1 x2 = poolBlock (k0_pay4 x0 x1) x2 := rfl
theorem pay1_eq (x0 x1 : Vec Ideal S1x256x2048 .f32) (x2 : Vec Ideal S2048x128 .bf16) :
    k0_pay1 (k0_pay5 x2) (k0_pay9 x0 x1) (constant (F := Ideal) S256x128 .f32 0x00000000#32) = poolBlock (lastNode x0 x1) x2 := rfl

/-- The product's two index maps at the contraction's coordinate `t`: row `c` of the left factor, column `k` of the right. -/
theorem lhs_idx (c : Fin 256) (k : Fin 128) (t : Fin 2048) :
    dot_S256x2048_S2048x128_S256x128_1_0_0_1_n_n.lhsIdx (ix2 c k)
      ((contrEquiv1 dot_S256x2048_S2048x128_S256x128_1_0_0_1_n_n 2048 rfl rfl).symm t) = ix2 c t := by
  have ct := contrEquiv1_symm_val dot_S256x2048_S2048x128_S256x128_1_0_0_1_n_n 2048 rfl rfl t
  funext ax; apply Fin.ext
  match ax with
  | ⟨0, _⟩ => simp [DotDims.lhsIdx, dot_S256x2048_S2048x128_S256x128_1_0_0_1_n_n]; rfl
  | ⟨1, _⟩ => simp [DotDims.lhsIdx, dot_S256x2048_S2048x128_S256x128_1_0_0_1_n_n]; exact ct

theorem rhs_idx (c : Fin 256) (k : Fin 128) (t : Fin 2048) :
    dot_S256x2048_S2048x128_S256x128_1_0_0_1_n_n.rhsIdx (ix2 c k)
      ((contrEquiv1 dot_S256x2048_S2048x128_S256x128_1_0_0_1_n_n 2048 rfl rfl).symm t) = ix2 t k := by
  have ct := contrEquiv1_symm_val dot_S256x2048_S2048x128_S256x128_1_0_0_1_n_n 2048 rfl rfl t
  funext ax; apply Fin.ext
  match ax with
  | ⟨0, _⟩ => simp [DotDims.rhsIdx, dot_S256x2048_S2048x128_S256x128_1_0_0_1_n_n]; exact ct
  | ⟨1, _⟩ => simp [DotDims.rhsIdx, dot_S256x2048_S2048x128_S256x128_1_0_0_1_n_n]; rfl

/-- A POOLED BLOCK AT AN INDEX: the sum over the time steps of the block's row times the matrix's column. -/
theorem poolBlock_apply (z : Vec Ideal S1x256x2048 .f32) (p : Vec Ideal S2048x128 .bf16) (c : Fin 256) (k : Fin 128) :
    poolBlock z p (ix3 (0 : Fin 1) c k) = ∑ t : Fin 2048, z (ix3 (0 : Fin 1) c t) * p (ix2 t k) := by
  unfold poolBlock
  rw [shapeCast_apply _ Facts₀.shapeCasts_S256x128_S1x256x128 (ix3 (0 : Fin 1) c k) (ix2 c k)
    (by rw [Shape.rowMajor_val_two, Shape.rowMajor_val_three]; show c.val * 128 + k.val = ((0 : Fin 1).val * 256 + c.val) * 128 + k.val; simp)]
  simp only [matmul]
  rw [Ideal.matmul_constant_zero_apply,
    ← Equiv.sum_comp (contrEquiv1 dot_S256x2048_S2048x128_S256x128_1_0_0_1_n_n 2048 rfl rfl).symm]
  refine Finset.sum_congr rfl fun t _ => ?_
  rw [lhs_idx, rhs_idx, shapeCast_self]
  show shapeCast S256x2048 z Facts₀.shapeCasts_S1x256x2048_S256x2048 (ix2 c t) * p (ix2 t k) = _
  rw [shapeCast_apply z Facts₀.shapeCasts_S1x256x2048_S256x2048 (ix2 c t) (ix3 (0 : Fin 1) c t)
    (by rw [Shape.rowMajor_val_two, Shape.rowMajor_val_three]; show ((0 : Fin 1).val * 256 + c.val) * 2048 + t.val = c.val * 2048 + t.val; simp)]

end Cert.KernelIdeal.Pooling

end
-- ==== Proof.KernelBlock.lean ====
/-
  What the kernel body leaves in its output block, as ONE function of its three input blocks.

  The body's four stores tile the [1, 1024, 128] output block by rows: node n's pooled block goes to rows
  256 n … 256 n + 255. So entry (0, r, k) of the block is the sum over the 2048 time steps of node r / 256 at channel
  r % 256 times the matrix's column k — the same expression for every piece, which is what lets the four pieces be
  read as one function.
-/
import proofs.«179238_j27633819582750_1_alg».proof.Proof.Gen.KernelIdeal.Frame
import proofs.«179238_j27633819582750_1_alg».proof.Proof.KernelPool

open scoped BigOperators

noncomputable section

namespace Cert.KernelIdeal.Pooling

open Cert.KernelIdeal Cert.KernelIdeal.Gen Idealize.ShloMosaic Idealize.ShloMosaic.ValueIdx Cert.Pool

/-- The output block as one function of the input blocks. -/
def blockOut (x0 x1 : Vec Ideal S1x256x2048 .f32) (x2 : Vec Ideal S2048x128 .bf16) : Vec Ideal S1x1024x128 .f32 :=
  fun y => ∑ t : Fin 2048,
    node (nodeOf (y 1)) (x0 (ix3 (0 : Fin 1) (chanOf (y 1)) t)) (x1 (ix3 (0 : Fin 1) (chanOf (y 1)) t)) * x2 (ix2 t (y 2))

/-- At row `256 n + c` and column `k` it is node `n` at channel `c` against column `k`. -/
theorem blockOut_at (x0 x1 : Vec Ideal S1x256x2048 .f32) (x2 : Vec Ideal S2048x128 .bf16) (y : S1x1024x128.Idx)
    (n : Fin 4) (c : Fin 256) (k : Fin 128) (hy1 : (y 1).val = 256 * n.val + c.val) (hy2 : (y 2).val = k.val) :
    blockOut x0 x1 x2 y
      = ∑ t : Fin 2048, node n (x0 (ix3 (0 : Fin 1) c t)) (x1 (ix3 (0 : Fin 1) c t)) * x2 (ix2 t k) := by
  have hn : nodeOf (y 1) = n := Fin.ext (by show (y 1).val / 256 = n.val; have := c.isLt; omega)
  have hc : chanOf (y 1) = c := Fin.ext (by show (y 1).val % 256 = c.val; have := c.isLt; omega)
  have hk : y 2 = k := Fin.ext hy2
  unfold blockOut
  rw [hn, hc, hk]

/-- A node's pooled block, at its local index, is the output function at the row 256 n further down. -/
theorem pool_piece (x0 x1 : Vec Ideal S1x256x2048 .f32) (x2 : Vec Ideal S2048x128 .bf16) (n : Fin 4)
    (z : Vec Ideal S1x256x2048 .f32) (hz : ∀ i, z i = node n (x0 i) (x1 i))
    (x : S1x256x128.Idx) (y : S1x1024x128.Idx)
    (hy1 : (y 1).val = 256 * n.val + (x 1).val) (hy2 : (y 2).val = (x 2).val) :
    poolBlock z x2 x = blockOut x0 x1 x2 y := by
  rw [blockOut_at x0 x1 x2 y n (x 1) (x 2) hy1 hy2]
  obtain ⟨a, c, k, rfl⟩ : ∃ (a : Fin 1) (c : Fin 256) (k : Fin 128), x = ix3 a c k := ⟨x 0, x 1, x 2, eq_ix3 x⟩
  obtain rfl : a = 0 := Subsingleton.elim _ _
  rw [poolBlock_apply]
  exact Finset.sum_congr rfl fun t _ => by rw [hz]

/-- THE OUTPUT BLOCK after the body is that function of the input blocks. -/
theorem out0_3_eq (x0 x1 : Vec Ideal S1x256x2048 .f32) (x2 : Vec Ideal S2048x128 .bf16) :
    out0_3 x0 x1 x2 = blockOut x0 x1 x2 := by
  have hz1 : (![0, 0] : Fin 2 → Nat) = fun _ => 0 := funext fun a => by fin_cases a <;> rfl
  have hz0 : (![0, 0, 0] : Fin 3 → Nat) = fun _ => 0 := funext fun a => by fin_cases a <;> rfl
  funext y
  unfold out0_3
  simp only [View.ld_unit_zero (S := S1x256x2048) hz0, View.ld_unit_zero (S := S2048x128) hz1]
  refine View.canon_apply_of_pieces (blockOut x0 x1 x2) _ ?_ y (cover0_3 _ _ _ _ y)
  intro p hp x
  simp only [List.mem_cons, List.not_mem_nil, or_false] at hp
  rcases hp with rfl | rfl | rfl | rfl
  · show k0_pay1 (k0_pay5 x2) (k0_pay9 x0 x1) (constant (F := Ideal) S256x128 .f32 0x00000000#32) x = _
    rw [pay1_eq]
    exact pool_piece x0 x1 x2 3 _ (lastNode_apply x0 x1) x _ (by show 768 + 1 * (x 1).val = 256 * 3 + (x 1).val; omega)
      (by show 0 + 1 * (x 2).val = (x 2).val; omega)
  · show k0_pay8 x0 x1 x2 x = _
    rw [pay8_eq]
    exact pool_piece x0 x1 x2 2 _ (pay4_apply x0 x1) x _ (by show 512 + 1 * (x 1).val = 256 * 2 + (x 1).val; omega)
      (by show 0 + 1 * (x 2).val = (x 2).val; omega)
  · show k0_pay7 x0 x1 x2 x = _
    rw [pay7_eq]
    exact pool_piece x0 x1 x2 1 _ (pay3_apply x0 x1) x _ (by show 256 + 1 * (x 1).val = 256 * 1 + (x 1).val; omega)
      (by show 0 + 1 * (x 2).val = (x 2).val; omega)
  · show k0_pay6 x0 x1 x2 x = _
    rw [pay6_eq]
    exact pool_piece x0 x1 x2 0 _ (pay2_apply x0 x1) x _ (by show 0 + 1 * (x 1).val = 256 * 0 + (x 1).val; omega)
      (by show 0 + 1 * (x 2).val = (x 2).val; omega)

end Cert.KernelIdeal.Pooling

end
-- ==== Proof.FloorDiv.lean ====
/-
  The integer words behind the pooling matrix, with no program in sight.

  The kernel's wrapper builds the matrix from two iotas: entry (t, k) is one sixteenth when `t // 16 = k` and zero
  otherwise. jnp lowers `t // 16` on signed 32-bit words as the quotient rounded toward zero, less one when the
  operands' signs differ and the remainder is not zero. For a row number `0 ≤ t < 2048` and the divisor 16 that
  correction never fires — a positive `t` has the divisor's sign, and `t = 0` has remainder zero — so the word is
  the word of the natural-number quotient `t / 16`.
-/
import Idealize.ShloMosaic.Lib.Affine

namespace Cert.Pool

open Idealize.ShloMosaic

/-- `stablehlo.sign` of one 32-bit word. -/
def sgnWord (x : BitVec 32) : BitVec 32 := if x = 0 then 0 else if x.msb then -1 else 1

/-- jnp's `x // 16` on one 32-bit word, operation by operation as it is lowered. -/
def floorDiv16 (x : BitVec 32) : BitVec 32 :=
  Scalar.select
    (IntOp.andi (IntOp.cmpi .ne (sgnWord x) (sgnWord 16#32)) (IntOp.cmpi .ne (IntOp.remsi .host x 16#32) 0#32))
    (IntOp.subi (IntOp.divsi .host x 16#32) 1#32) (IntOp.divsi .host x 16#32)

theorem msb_ofNat_small (t : Nat) (ht : t < 2048) : (BitVec.ofNat 32 t).msb = false := by
  rw [BitVec.msb_eq_false_iff_two_mul_lt, BitVec.toNat_ofNat]; omega

/-- The truncated quotient of a small nonnegative word by 16 is the natural-number quotient. -/
theorem divsi16 (t : Nat) (ht : t < 2048) :
    IntOp.divsi .host (BitVec.ofNat 32 t) 16#32 = BitVec.ofNat 32 (t / 16) := by
  have hy : (16#32 : BitVec 32).msb = false := by decide
  rw [IntOp.divsi, if_neg (IntOp.not_corner_of_pos (by decide)), BitVec.sdiv_eq, msb_ofNat_small t ht, hy]
  dsimp only
  apply BitVec.eq_of_toNat_eq
  have h16 : 16 % 2 ^ 32 = 16 := by decide
  simp only [BitVec.udiv_eq, BitVec.toNat_udiv, BitVec.toNat_ofNat, h16]
  omega

/-- For a row number below 2048 the floor division is the natural-number quotient: the correction does not fire. -/
theorem floorDiv16_ofNat (t : Nat) (ht : t < 2048) : floorDiv16 (BitVec.ofNat 32 t) = BitVec.ofNat 32 (t / 16) := by
  have hguard : IntOp.andi (IntOp.cmpi .ne (sgnWord (BitVec.ofNat 32 t)) (sgnWord 16#32))
      (IntOp.cmpi .ne (IntOp.remsi .host (BitVec.ofNat 32 t) 16#32) 0#32) ≠ 1#1 := by
    rw [Ne, IntOp.andi_eq_one, IntOp.cmpi_ne, IntOp.cmpi_ne]
    rintro ⟨hs, hr⟩
    by_cases h0 : t = 0
    · subst h0; exact hr (by decide)
    · apply hs
      have hne : BitVec.ofNat 32 t ≠ 0 := by
        intro h
        have := congrArg BitVec.toNat h
        rw [BitVec.toNat_ofNat] at this
        have h0' : (0 : BitVec 32).toNat = 0 := rfl
        omega
      have h16 : sgnWord 16#32 = 1 := by decide
      rw [h16, sgnWord, if_neg hne, msb_ofNat_small t ht]
      rfl
  unfold floorDiv16 Scalar.select
  exact (if_neg hguard).trans (divsi16 t ht)

/-- Two small numbers are equal as 32-bit words exactly when they are equal. -/
theorem ofNat_eq_iff_small (a b : Nat) (ha : a < 2048) (hb : b < 2048) : BitVec.ofNat 32 a = BitVec.ofNat 32 b ↔ a = b := by
  constructor
  · intro h
    have := congrArg BitVec.toNat h
    rw [BitVec.toNat_ofNat, BitVec.toNat_ofNat] at this
    omega
  · rintro rfl; rfl

/-- ONE ENTRY of the pooling matrix: the select on `t // 16 = k` is the `if` on the natural numbers. -/
theorem select_window {α : Type} (t k : Nat) (ht : t < 2048) (hk : k < 128) (a b : α) :
    Scalar.select (IntOp.cmpi .eq (floorDiv16 (BitVec.ofNat 32 t)) (BitVec.ofNat 32 k)) a b = if t / 16 = k then a else b := by
  rw [floorDiv16_ofNat t ht]
  unfold Scalar.select
  by_cases h : t / 16 = k
  · rw [if_pos h]
    exact if_pos (IntOp.cmpi_eq.mpr ((ofNat_eq_iff_small _ _ (by omega) (by omega)).mpr h))
  · rw [if_neg h]
    exact if_neg (fun hc => h ((ofNat_eq_iff_small _ _ (by omega) (by omega)).mp (IntOp.cmpi_eq.mp hc)))

end Cert.Pool
-- ==== Proof.PoolMatrix.lean ====
/-
  The pooling matrix as the kernel's region finds it.

  The wrapper computes the third operand on the host before the call: from an iota down the rows (t) and an iota
  along the columns (k) it forms `t // 16`, compares it with `k`, and selects the bf16 constant one sixteenth where they
  agree and zero elsewhere. So entry (t, k) of the [2048, 128] matrix is one sixteenth when time step `t` lies in
  window `k`, and zero otherwise: column `k` is the averaging column of window `k`.
-/
import proofs.«179238_j27633819582750_1_alg».proof.Proof.Gen.KernelIdeal.Frame
import proofs.«179238_j27633819582750_1_alg».proof.Proof.FloorDiv
import Idealize.ShloMosaic.Lib.StableHlo.Run
import Idealize.ShloMosaic.Lib.ValueIdx
import Idealize.ShloMosaic.Lib.IdealHost

noncomputable section

namespace Cert.KernelIdeal.Matrix

open Cert.KernelIdeal Cert.KernelIdeal.Gen Idealize.ShloMosaic Idealize.ShloMosaic.TcCoe Idealize.SL.Sem
open Idealize.ShloMosaic.StableHlo Idealize.ShloMosaic.ValueIdx Cert.Pool

variable (m : (ℓ : Loc nD τ sig) → Buf (Elt Ideal) ℓ)

/-- The sixteen broadcast to the matrix's shape, as the floor division reads it. -/
def sixteens : (⟨S2048x128, .i32⟩ : BufTy).Contents (Elt Ideal) :=
  broadcastInDim S2048x128 ![] Facts₀.bcast_S_S2048x128 (id (constantI S_ 32 16#32))

/-- `t // 16` over the matrix's shape, operation by operation as the host computes it. -/
def rowWindow : (⟨S2048x128, .i32⟩ : BufTy).Contents (Elt Ideal) :=
  select
    (andi (cmpi .ne (signi (iotaInDim S2048x128 32 0))
        (broadcastInDim S2048x128 ![] Facts₀.bcast_S_S2048x128 (signi (id (constantI S_ 32 16#32)))))
      (cmpi .ne (Host.remsi (iotaInDim S2048x128 32 0) sixteens)
        (broadcastInDim S2048x128 ![] Facts₀.bcast_S_S2048x128 (constantI S_ 32 0#32))))
    (subi (Host.divsi (iotaInDim S2048x128 32 0) sixteens)
      (broadcastInDim S2048x128 ![] Facts₀.bcast_S_S2048x128 (constantI S_ 32 1#32)))
    (Host.divsi (iotaInDim S2048x128 32 0) sixteens)

/-- The matrix: one sixteenth where the row's window is the column, zero elsewhere. -/
def poolMatrix : (⟨S2048x128, .bf16⟩ : BufTy).Contents (Elt Ideal) :=
  select (cmpi .eq rowWindow (iotaInDim S2048x128 32 1))
    (broadcastInDim S2048x128 ![] Facts₀.bcast_S_S2048x128 (constant (F := Ideal) S_ .bf16 0x3D80#16))
    (broadcastInDim S2048x128 ![] Facts₀.bcast_S_S2048x128 (constant (F := Ideal) S_ .bf16 0x0000#16))

set_option maxHeartbeats 2000000 in
set_option maxRecDepth 8192 in
/-- When the region is entered, the third operand's buffer holds that matrix: the host operations before the call,
    composed. -/
theorem matrix_at_entry (c : Dev nD) :
    (V m c main_v4 : (⟨S2048x128, .bf16⟩ : BufTy).Contents (Elt Ideal)) = poolMatrix := by
  dsimp only [Gen.V]
  simp only [Gen.hostOps0, Gen.hostOps0_1, Gen.hostOps0_2, Gen.hostOps0_3, List.flatten_cons, List.flatten_nil,
    List.append_nil, List.cons_append, List.nil_append]
  after_results_simp
  rfl

/-- ONE ENTRY of the matrix. -/
theorem poolMatrix_apply (t : Fin 2048) (k : Fin 128) :
    poolMatrix (ix2 t k) = if t.val / 16 = k.val then (((1 : ℝ) / 16 : ℝ) : EReal) else 0 := by
  show Scalar.select (IntOp.cmpi .eq (floorDiv16 (BitVec.ofNat 32 t.val)) (BitVec.ofNat 32 k.val))
    (Ideal.ofBits .bf16 0x3D80#16) (Ideal.ofBits .bf16 0x0000#16) = _
  rw [select_window t.val k.val t.isLt k.isLt, Ideal.ofBits_sixteenth_bf16, Ideal.ofBits_zero_bf16]

end Cert.KernelIdeal.Matrix

end
-- ==== Proof.KernelValue.lean ====
/-
  The kernel's result array after the run is the specification of the argument arrays.

  The grid has 32 points, one per batch. At point t the two argument windows hold batch t of s0 and s1, the third
  window holds the whole pooling matrix, and the output window's block is batch t of the result. The body leaves in
  that block, at (0, r, k), the row of node r / 256 at channel r % 256 against the matrix's column k; the matrix's
  column k is the averaging column of window k, so by the averaging law this is entry (t, r, k) of the specification.
  The 32 blocks cover the result array, so the whole array ends at the specification.
-/
import proofs.«179238_j27633819582750_1_alg».proof.Proof.Gen.KernelIdeal.Value
import proofs.«179238_j27633819582750_1_alg».proof.Proof.KernelBlock
import proofs.«179238_j27633819582750_1_alg».proof.Proof.PoolMatrix
import Idealize.ShloMosaic.Lib.Pipeline.Value

open scoped BigOperators

noncomputable section

namespace Cert.KernelIdeal.Whole

open Cert.KernelIdeal Cert.KernelIdeal.Gen Cert.KernelIdeal.Value Cert.KernelIdeal.Pooling Cert.KernelIdeal.Matrix
open Idealize.ShloMosaic Idealize.ShloMosaic.TcCoe Idealize.SL.Sem Idealize.ShloMosaic.ValueIdx Cert.Pool
open Idealize.ShloMosaic.Pipeline (Dat)

variable (m : (ℓ : Loc nD τ sig) → Buf (Elt Ideal) ℓ) (ρ : Dev nD → PrngReg)

/-- The printed index maps, decided over the 32 grid points: the two argument windows and the output window move
    with the batch, the matrix's window stays at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The first argument's block at point `t` is batch `t` of the argument. -/
theorem iblk0_apply (c : Dev nD) (t : Fin cfg0.N) (b : Fin 32) (hb : b.val = t.val) (ch : Fin 256) (tt : Fin 2048) :
    (iblk m c 0 t : Vec Ideal S1x256x2048 .f32) (ix3 (0 : Fin 1) ch tt)
      = (m ((c : Thread nD τ).loc main_arg0) : S32x256x2048.Idx → EReal) (ix3 b ch tt) := by
  obtain ⟨e0, e1, e2, -⟩ := idx_facts t
  have hidx : ((cfg0.win 0).blk t).view.emb (ix3 (0 : Fin 1) ch tt) = ix3 b ch tt := by
    funext a; apply Fin.ext
    match a with
    | ⟨0, _⟩ => show win0_0.index t (0 : Fin 3) * 1 + 1 * 0 = b.val; omega
    | ⟨1, _⟩ => show win0_0.index t (1 : Fin 3) * 256 + 1 * ch.val = ch.val; omega
    | ⟨2, _⟩ => show win0_0.index t (2 : Fin 3) * 2048 + 1 * tt.val = tt.val; omega
  show V m c main_arg0 (((cfg0.win 0).blk t).view.emb (ix3 (0 : Fin 1) ch tt)) = _
  rw [hidx]
  exact congrFun (V_main_arg0 m c) _

/-- The second argument's block at point `t` is batch `t` of the argument. -/
theorem iblk1_apply (c : Dev nD) (t : Fin cfg0.N) (b : Fin 32) (hb : b.val = t.val) (ch : Fin 256) (tt : Fin 2048) :
    (iblk m c 1 t : Vec Ideal S1x256x2048 .f32) (ix3 (0 : Fin 1) ch tt)
      = (m ((c : Thread nD τ).loc main_arg1) : S32x256x2048.Idx → EReal) (ix3 b ch tt) := by
  obtain ⟨-, -, -, e0, e1, e2, -⟩ := idx_facts t
  have hidx : ((cfg0.win 1).blk t).view.emb (ix3 (0 : Fin 1) ch tt) = ix3 b ch tt := by
    funext a; apply Fin.ext
    match a with
    | ⟨0, _⟩ => show win0_1.index t (0 : Fin 3) * 1 + 1 * 0 = b.val; omega
    | ⟨1, _⟩ => show win0_1.index t (1 : Fin 3) * 256 + 1 * ch.val = ch.val; omega
    | ⟨2, _⟩ => show win0_1.index t (2 : Fin 3) * 2048 + 1 * tt.val = tt.val; omega
  show V m c main_arg1 (((cfg0.win 1).blk t).view.emb (ix3 (0 : Fin 1) ch tt)) = _
  rw [hidx]
  exact congrFun (V_main_arg1 m c) _

/-- The third window's block at every point is the whole pooling matrix. -/
theorem iblk2_apply (c : Dev nD) (t : Fin cfg0.N) (tt : Fin 2048) (k : Fin 128) :
    (iblk m c 2 t : Vec Ideal S2048x128 .bf16) (ix2 tt k) = poolMatrix (ix2 tt k) := by
  obtain ⟨-, -, -, -, -, -, e0, e1, -⟩ := idx_facts t
  have hidx : ((cfg0.win 2).blk t).view.emb (ix2 tt k) = ix2 tt k := by
    funext a; apply Fin.ext
    match a with
    | ⟨0, _⟩ => show win0_2.index t (0 : Fin 2) * 2048 + 1 * tt.val = tt.val; omega
    | ⟨1, _⟩ => show win0_2.index t (1 : Fin 2) * 128 + 1 * k.val = k.val; omega
  show V m c main_v4 (((cfg0.win 2).blk t).view.emb (ix2 tt k)) = _
  rw [hidx]
  exact congrFun (matrix_at_entry m c) _

/-- WHAT POINT `t` WRITES BACK is block `t` of the specification of the argument arrays. -/
theorem flushed_eq (c : Dev nD) (t : Fin cfg0.N) :
    (dats m 0 c).flushed 3 t = ((cfg0.win 3).blk t).view.read (Elt Ideal)
      (pooled (m ((c : Thread nD τ).loc main_arg0)) (m ((c : Thread nD τ).loc main_arg1))) := by
  rw [flushed3, out0_3_eq]
  obtain ⟨-, -, -, -, -, -, -, -, e0, e1, e2⟩ := idx_facts t
  have hN : cfg0.N = 32 := N_0
  have hb : t.val < 32 := hN ▸ t.isLt
  funext y
  obtain ⟨a, r, k, rfl⟩ : ∃ (a : Fin 1) (r : Fin 1024) (k : Fin 128), y = ix3 a r k := ⟨y 0, y 1, y 2, eq_ix3 y⟩
  obtain rfl : a = 0 := Subsingleton.elim _ _
  have hemb : ((cfg0.win 3).blk t).view.emb (ix3 (0 : Fin 1) r k) = ix3 (⟨t.val, hb⟩ : Fin 32) r k := by
    funext a; apply Fin.ext
    match a with
    | ⟨0, _⟩ => show win0_3.index t (0 : Fin 3) * 1 + 1 * 0 = t.val; omega
    | ⟨1, _⟩ => show win0_3.index t (1 : Fin 3) * 1024 + 1 * r.val = r.val; omega
    | ⟨2, _⟩ => show win0_3.index t (2 : Fin 3) * 128 + 1 * k.val = k.val; omega
  show blockOut (iblk m c 0 t) (iblk m c 1 t) (iblk m c 2 t) (ix3 (0 : Fin 1) r k)
    = pooled (m ((c : Thread nD τ).loc main_arg0)) (m ((c : Thread nD τ).loc main_arg1))
        (((cfg0.win 3).blk t).view.emb (ix3 (0 : Fin 1) r k))
  rw [hemb]
  show _ = pooledAt (m ((c : Thread nD τ).loc main_arg0)) (m ((c : Thread nD τ).loc main_arg1)) ⟨t.val, hb⟩ r k
  rw [← row_times_column _ _ ⟨t.val, hb⟩ r k (fun tt => poolMatrix (ix2 tt k)) (fun tt => poolMatrix_apply tt k)]
  show ∑ tt : Fin 2048, node (nodeOf r) ((iblk m c 0 t : Vec Ideal S1x256x2048 .f32) (ix3 (0 : Fin 1) (chanOf r) tt))
      ((iblk m c 1 t : Vec Ideal S1x256x2048 .f32) (ix3 (0 : Fin 1) (chanOf r) tt)) * (iblk m c 2 t : Vec Ideal S2048x128 .bf16) (ix2 tt k) = _
  refine Finset.sum_congr rfl fun tt _ => ?_
  rw [iblk0_apply m c t ⟨t.val, hb⟩ rfl, iblk1_apply m c t ⟨t.val, hb⟩ rfl, iblk2_apply m c t]
  rfl

/-- Every index of the result array lies in the block of the point of its batch. -/
theorem covered (c : Dev nD) (i : S32x1024x128.Idx) :
    ∃ t : Fin cfg0.N, (cfg0.win 3).flush t = true ∧ i ∈ ((cfg0.win 3).blk t).view.set := by
  have hN : cfg0.N = 32 := N_0
  have h0 : (i 0).val < 32 := (i 0).isLt
  have h1 : (i 1).val < 1024 := (i 1).isLt
  have h2 : (i 2).val < 128 := (i 2).isLt
  have ht : (i 0).val < cfg0.N := by rw [hN]; exact h0
  obtain ⟨-, -, -, -, -, -, -, -, e0', e1, e2⟩ := idx_facts ⟨(i 0).val, ht⟩
  have e0 : win0_3.index ⟨(i 0).val, ht⟩ (0 : Fin 3) = (i 0).val := e0'
  refine ⟨⟨(i 0).val, ht⟩, flush0_3 _, ?_⟩
  show i ∈ ((View.whole main_v5).slice (win0_3.rect ⟨(i 0).val, ht⟩)).set
  rw [View.set_slice_whole, Rect.mem_set_unit]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0]; constructor <;> omega
  | ⟨1, _⟩ =>
    show win0_3.index ⟨(i 0).val, ht⟩ (1 : Fin 3) * 1024 ≤ (i 1).val ∧ (i 1).val < win0_3.index ⟨(i 0).val, ht⟩ (1 : Fin 3) * 1024 + 1024
    rw [e1]; constructor <;> omega
  | ⟨2, _⟩ =>
    show win0_3.index ⟨(i 0).val, ht⟩ (2 : Fin 3) * 128 ≤ (i 2).val ∧ (i 2).val < win0_3.index ⟨(i 0).val, ht⟩ (2 : Fin 3) * 128 + 128
    rw [e2]; constructor <;> omega

/-- THE RESULT ARRAY after the run is the specification of the argument arrays. -/
theorem final (c : Dev nD) : (dats m 0 c).arrAt 3 cfg0.N
    = pooled (m ((c : Thread nD τ).loc main_arg0)) (m ((c : Thread nD τ).loc main_arg1)) :=
  (dats m 0 c).arrAt_eq_of_cover 3 _ (fun t _ => flushed_eq m c t) (covered c)

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v5)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefPooled.lean ====
/-
  The reference's result, read at an index, is the specification.

  The reference forms the four nodes as whole arrays (each sum written from a zero, the logistic as
  1 / (1 + exp (-x))), joins them along the channel axis, splits the time axis 2048 = 128 × 16, sums the last axis
  from zero and divides by sixteen. Index by index that is the mean over window k of node r / 256 at channel r % 256.
-/
import proofs.«179238_j27633819582750_1_alg».proof.Proof.Gen.ReferenceIdeal.Read
import proofs.«179238_j27633819582750_1_alg».proof.Proof.PoolSpec
import Idealize.ShloMosaic.Lib.Pipeline.Value
import Idealize.ShloMosaic.Lib.ValueIdx
import Idealize.ShloMosaic.Lib.IdealHost

open scoped BigOperators

noncomputable section

namespace Cert.ReferenceIdeal.Pooled

open Cert.ReferenceIdeal Cert.ReferenceIdeal.Gen Cert.ReferenceIdeal.Read Idealize.ShloMosaic Idealize.ShloMosaic.ValueIdx Cert.Pool

variable (x0 x1 : (⟨S32x256x2048, .f32⟩ : BufTy).Contents (Elt Ideal))

/-- The f32 pattern `0x41800000` is the real sixteen. -/
theorem ofBits_sixteen : Ideal.ofBits .f32 0x41800000#32 = ((16 : ℝ) : EReal) := by
  simp [Ideal.ofBits, Ideal.ieee, -EReal.coe_mul]; norm_num

/-! ## The four node arrays, position by position -/

theorem v4_apply (i : S32x256x2048.Idx) : val_main_v4 (F := Ideal) x0 x1 i = node2 (x0 i) (x1 i) := by
  rw [val_main_v4_apply, val_main_v2_apply, val_main_v1_apply, val_main_cst_apply, val_main_v0_apply, val_main_v3_apply,
    val_main_call0_v0_apply, val_main_call0_cst_apply]
  simp only [Ideal.addf_def, Ideal.ofBits_def, Ideal.ofBits_zero_f32, zero_add, Ideal.hostUnary_tanh_def, Ideal.maximumf_def]
  rfl

theorem v13_apply (i : S32x256x2048.Idx) : val_main_v13 (F := Ideal) x0 x1 i = node3 (x0 i) (x1 i) := by
  rw [val_main_v13_apply, v4_apply, val_main_v12_apply, val_main_v11_apply, val_main_cst_2_apply, val_main_v10_apply,
    val_main_v9_apply, val_main_cst_1_apply, val_main_v8_apply, val_main_v7_apply, val_main_cst_0_apply, val_main_v6_apply,
    val_main_v5_apply]
  simp only [Ideal.addf_def, Ideal.ofBits_def, Ideal.ofBits_zero_f32, Ideal.ofBits_one_f32, zero_add, Ideal.hostDivf_def,
    Ideal.hostUnary_exp_def, Ideal.hostNegf_def, Ideal.negf_def]
  rfl

theorem v18_apply (i : S32x256x2048.Idx) : val_main_v18 (F := Ideal) x0 x1 i = node4 (x0 i) (x1 i) := by
  rw [val_main_v18_apply, val_main_v16_apply, val_main_v15_apply, val_main_cst_3_apply, val_main_v14_apply, val_main_v17_apply,
    v13_apply, val_main_call1_v0_apply, val_main_call1_cst_apply]
  simp only [Ideal.addf_def, Ideal.ofBits_def, Ideal.ofBits_zero_f32, zero_add, Ideal.hostUnary_tanh_def, Ideal.maximumf_def]
  rfl

theorem v27_apply (i : S32x256x2048.Idx) : val_main_v27 (F := Ideal) x0 x1 i = node5 (x0 i) (x1 i) := by
  rw [val_main_v27_apply, v18_apply, val_main_v26_apply, val_main_v25_apply, val_main_cst_6_apply, val_main_v24_apply,
    val_main_v23_apply, val_main_cst_5_apply, val_main_v22_apply, val_main_v21_apply, val_main_cst_4_apply, val_main_v20_apply,
    val_main_v19_apply, v4_apply]
  simp only [Ideal.addf_def, Ideal.ofBits_def, Ideal.ofBits_zero_f32, Ideal.ofBits_one_f32, zero_add, Ideal.hostDivf_def,
    Ideal.hostUnary_exp_def, Ideal.hostNegf_def, Ideal.negf_def]
  rfl

/-- The four node arrays in the order they are joined. -/
def nodeArray (n : Fin 4) : S32x256x2048.Idx → EReal :=
  match n with
  | ⟨0, _⟩ => val_main_v4 (F := Ideal) x0 x1
  | ⟨1, _⟩ => val_main_v13 (F := Ideal) x0 x1
  | ⟨2, _⟩ => val_main_v18 (F := Ideal) x0 x1
  | ⟨3, _⟩ => val_main_v27 (F := Ideal) x0 x1

theorem nodeArray_apply (n : Fin 4) (i : S32x256x2048.Idx) : nodeArray x0 x1 n i = node n (x0 i) (x1 i) := by
  match n with
  | ⟨0, _⟩ => exact v4_apply x0 x1 i
  | ⟨1, _⟩ => exact v13_apply x0 x1 i
  | ⟨2, _⟩ => exact v18_apply x0 x1 i
  | ⟨3, _⟩ => exact v27_apply x0 x1 i

/-! ## The join along the channel axis -/

/-- Row `r` of the joined array is node `r / 256` at channel `r % 256`. -/
theorem v28_apply (b : Fin 32) (r : Fin 1024) (t : Fin 2048) :
    val_main_v28 (F := Ideal) x0 x1 (ix3 b r t)
      = node (nodeOf r) (x0 (ix3 b (chanOf r) t)) (x1 (ix3 b (chanOf r) t)) := by
  rw [← nodeArray_apply]
  unfold val_main_v28
  exact concatenate_ofFn_apply (t := S32x1024x2048) (s₁ := S32x256x2048) (1 : Fin 3) (nodeArray x0 x1)
    Facts₀.concatenates_S32x256x2048_S32x256x2048_S32x256x2048_S32x256x2048_S32x1024x2048_d1 rfl 256 rfl
    (ix3 b r t) (nodeOf r) rfl (ix3 b (chanOf r) t) rfl
    (fun b' => match b' with
      | ⟨0, _⟩ => fun _ => rfl
      | ⟨1, _⟩ => fun h => absurd rfl h
      | ⟨2, _⟩ => fun _ => rfl)

/-! ## The whole result -/

/-- THE REFERENCE'S RESULT at an index is the specification's. -/
theorem result_apply (i : S32x1024x128.Idx) : val_main_v32 (F := Ideal) x0 x1 i = pooled x0 x1 i := by
  obtain ⟨b, r, k, rfl⟩ : ∃ (b : Fin 32) (r : Fin 1024) (k : Fin 128), i = ix3 b r k := ⟨i 0, i 1, i 2, eq_ix3 i⟩
  rw [val_main_v32_apply, val_main_v31_apply, val_main_cst_8_apply, val_main_v30_apply, val_main_cst_7_apply]
  simp only [Ideal.hostDivf_def, Ideal.ofBits_def, Ideal.ofBits_zero_f32, zero_add, ofBits_sixteen]
  show Ideal.div (∑ j : Fin 16, val_main_v29 (F := Ideal) x0 x1 (idx_main_v30 (ix3 b r k) j)) ((16 : ℝ) : EReal)
    = Ideal.div (∑ j : Fin 16, nodeRow x0 x1 b r (winPos k j)) ((16 : ℝ) : EReal)
  congr 1
  refine Finset.sum_congr rfl fun j _ => ?_
  rw [val_main_v29_apply]
  have hidx : idx_main_v29 (idx_main_v30 (ix3 b r k) j) = ix3 b r (winPos k j) := by
    have h0 : b.val < 32 := b.isLt
    have h1 : r.val < 1024 := r.isLt
    have h2 : k.val < 128 := k.isLt
    have h3 : j.val < 16 := j.isLt
    funext a; apply Fin.ext
    match a with
    | ⟨0, _⟩ => show (((b.val * 1024 + r.val) * 128 + k.val) * 16 + j.val) / 2097152 = b.val; omega
    | ⟨1, _⟩ => show (((b.val * 1024 + r.val) * 128 + k.val) * 16 + j.val) / 2048 % 1024 = r.val; omega
    | ⟨2, _⟩ => show (((b.val * 1024 + r.val) * 128 + k.val) * 16 + j.val) % 2048 = 16 * k.val + j.val; omega
  rw [hidx, v28_apply]
  rfl

/-- The reference's result array IS the specification's array. -/
theorem result_eq : val_main_v32 (F := Ideal) x0 x1 = pooled x0 x1 := funext (result_apply x0 x1)

end Cert.ReferenceIdeal.Pooled

end
-- ==== Proof.lean ====
/-
  The certificate of a pooled four-node cell: a Pallas kernel against its jnp reference, equal on the extended reals.

  Both programs take two arrays s0, s1 of shape [32, 256, 2048] (batch, channel, time). Position by position they form
      node2 = tanh s0 + max s1 0          node3 = logistic s1 + node2
      node4 = tanh s0 + max node3 0       node5 = logistic node2 + node4,
  lay the four nodes one after the other along the channel axis, and average each row's 2048 time steps over 128
  consecutive windows of 16; the result has shape [32, 1024, 128].

  The reference does this with whole arrays: it joins the nodes, splits the time axis 2048 = 128 × 16, sums the last
  axis and divides by sixteen. The kernel works one batch per grid point and averages by a matrix product: its wrapper
  builds, on the host, the [2048, 128] matrix that is one sixteenth at (t, k) when `t // 16 = k` and zero elsewhere,
  and the body multiplies each node's [256, 2048] block into it from a zero accumulator (after a change of float
  format, the identity on the extended reals) and stores the four products at rows 0, 256, 512, 768 of its block.

  Why they agree: a term times zero is zero, so a row against column k keeps only window k's sixteen terms; and the
  nonnegative finite factor one sixteenth distributes over a finite sum of extended reals whatever the summands, so
  the sum of the terms each times 1/16 is the window's sum divided by 16. Sixteen and one sixteenth are exact binary
  values, the floor division by 16 of a row number below 2048 is the plain quotient, and the logistic is
  1 / (1 + exp (-x)) on both sides. Nothing here needs the inputs to be finite.

  The modules: WindowMean (the averaging law), FloorDiv (the integer words), PoolSpec (the result as one function of
  the arguments), KernelPool and KernelBlock (the body's arithmetic and its output block), PoolMatrix (the matrix as
  the kernel finds it), KernelValue (the kernel's whole result array), RefPooled (the reference's), and below the
  five claims. The runs of both programs, and the frames, are the generated modules'.
-/
import proofs.«179238_j27633819582750_1_alg».proof.Defs
import proofs.«179238_j27633819582750_1_alg».proof.Proof.Gen.Kernel
import proofs.«179238_j27633819582750_1_alg».proof.Proof.Gen.Kernel.Skeleton
import proofs.«179238_j27633819582750_1_alg».proof.Proof.Gen.Kernel.Launch
import proofs.«179238_j27633819582750_1_alg».proof.Proof.Gen.Kernel.Points
import proofs.«179238_j27633819582750_1_alg».proof.Proof.Gen.Kernel.Frame
import proofs.«179238_j27633819582750_1_alg».proof.Proof.Gen.KernelIdeal
import proofs.«179238_j27633819582750_1_alg».proof.Proof.Gen.KernelIdeal.Skeleton
import proofs.«179238_j27633819582750_1_alg».proof.Proof.Gen.KernelIdeal.Launch
import proofs.«179238_j27633819582750_1_alg».proof.Proof.Gen.KernelIdeal.Points
import proofs.«179238_j27633819582750_1_alg».proof.Proof.Gen.KernelIdeal.Frame
import proofs.«179238_j27633819582750_1_alg».proof.Proof.Gen.ReferenceIdeal
import proofs.«179238_j27633819582750_1_alg».proof.Proof.Gen.Pre_finite_inputs
import proofs.«179238_j27633819582750_1_alg».proof.Proof.Gen.KernelIdeal.Value
import proofs.«179238_j27633819582750_1_alg».proof.Proof.Gen.ReferenceIdeal.Run
import proofs.«179238_j27633819582750_1_alg».proof.Proof.Gen.ReferenceIdeal.Read
import proofs.«179238_j27633819582750_1_alg».proof.Proof.KernelValue
import proofs.«179238_j27633819582750_1_alg».proof.Proof.RefPooled
import Idealize.ShloMosaic.Adequacy
import Idealize.ShloMosaic.Init

noncomputable section

namespace Cert.Proof

open Idealize.ShloMosaic Idealize.SL.Sem Cert.Kernel

/-- The word-level kernel runs and leaves its arguments as they were: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array ends at the specification of its arguments (the averaging by a
    matrix product), the reference's at the specification of ITS arguments (the sum over a window divided by
    sixteen), and the arguments agree. -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v32_eq _ _).trans ?_
  rw [Cert.ReferenceIdeal.Pooled.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
